-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 82
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x2, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x2, .f32⟩
  | .hbm, ⟨72, _⟩ => ⟨S3300000x1, .f32⟩
  | .hbm, ⟨73, _⟩ => ⟨S3300000x2, .f32⟩
  | .hbm, ⟨74, _⟩ => ⟨S3300000x2, .f32⟩
  | .hbm, ⟨75, _⟩ => ⟨S_, .f32⟩
  | .hbm, ⟨76, _⟩ => ⟨S100000x2, .f32⟩
  | .hbm, ⟨77, _⟩ => ⟨S3300000x1, .i32⟩
  | .hbm, ⟨78, _⟩ => ⟨S100000x2, .f32⟩
  | .hbm, ⟨79, _⟩ => ⟨S1x2, .f32⟩
  | .hbm, ⟨80, _⟩ => ⟨S100000x2, .f32⟩
  | .hbm, ⟨81, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x2, .f32⟩
  | .local _ .vmem, ⟨8, _⟩ => ⟨S5000x2, .f32⟩
  | .local _ .vmem, ⟨9, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000x16 : Shape := ⟨2, ![100000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 115
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000x16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x2, .f32⟩
  | .hbm, ⟨63, _⟩ => ⟨S1x3200000, .i32⟩
  | .hbm, ⟨64, _⟩ => ⟨S3200000, .i32⟩
  | .hbm, ⟨65, _⟩ => ⟨S1x3200000, .i32⟩
  | .hbm, ⟨66, _⟩ => ⟨S3200000, .i32⟩
  | .hbm, ⟨67, _⟩ => ⟨S100000, .i32⟩
  | .hbm, ⟨68, _⟩ => ⟨S3300000, .i32⟩
  | .hbm, ⟨69, _⟩ => ⟨S3300000, .i32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000, .f32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000x2, .f32⟩
  | .hbm, ⟨105, _⟩ => ⟨S3300000x1, .f32⟩
  | .hbm, ⟨106, _⟩ => ⟨S3300000x2, .f32⟩
  | .hbm, ⟨107, _⟩ => ⟨S3300000x2, .f32⟩
  | .hbm, ⟨108, _⟩ => ⟨S_, .f32⟩
  | .hbm, ⟨109, _⟩ => ⟨S100000x2, .f32⟩
  | .hbm, ⟨110, _⟩ => ⟨S3300000x1, .i32⟩
  | .hbm, ⟨111, _⟩ => ⟨S100000x2, .f32⟩
  | .hbm, ⟨112, _⟩ => ⟨S1x2, .f32⟩
  | .hbm, ⟨113, _⟩ => ⟨S100000x2, .f32⟩
  | .hbm, ⟨114, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.RunNamed.lean ====
/-
  The idealized kernel's run with its result named.

  @main is six segments: the host lines that build the edge lists and the edge weights, the first projection
  (a pipelined product over 20 row blocks), the host lines of the first aggregation and the cut at zero, the
  second projection, and the host lines of the second aggregation. The contents of every buffer at each segment
  boundary are the fold `W0, W1, …, W6` of the generated frame; at the end every unscoped buffer holds `W6` of
  it. So every weakly fair execution ends with the result buffer at `W6 … main_v61` and the arguments as launched.
-/
import proofs.«130400_j3917010174011_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.Layers.lean ====
/-
  The graph convolution as named functions of its operands, in the host program's own operations.

  A directed edge list `e : [2, E]` (row 0 the sources, row 1 the destinations) is extended by one self loop per
  node: `srcs e` and `dsts e` are row 0 and row 1 followed by `0, 1, …, N - 1`. The in-degree of a node counts the
  extended edges that end in it (ones scattered along `dsts e`), `dinv e` is its inverse square root, and the
  weight of an edge is `dinv` at its source times `dinv` at its destination (`norm e`). One layer gathers the
  projected features `h` at the edges' sources, scales each gathered row by its edge's weight, adds the rows up at
  the edges' destinations and adds the bias to every row (`agg16` for 16 features, `agg2` for 2). The network is
  two layers with a cut at zero between them; `gcn` states it with the two projections as parameters, so that a
  program that projects by a tiled product and one that projects by a single general dot are the same `gcn` of
  different projections.

  A gather's start indices go through the usual wrap of a negative index (`wrap`: `i < 0` reads `i + N`).
-/
import proofs.«130400_j3917010174011_2_alg».proof.KernelIdeal

noncomputable section

namespace Cert.KernelIdeal.Gcn

open Idealize.ShloMosaic Cert.KernelIdeal Cert.KernelIdeal.Facts₀

variable {F : FTy → Type} [FloatOps F] [Facts]

/-- The edges' sources, then every node once (its self loop's source). -/
def srcs (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' destinations, then every node once (its self loop's destination). -/
def dsts (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A list of node numbers as a column of start indices, a negative number `i` read as `i + N`. -/
def wrap (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- A list of node numbers as a column of scatter indices. -/
def col (v : (⟨S3300000, .i32⟩ : BufTy).Contents (Elt F)) : (⟨S3300000x1, .i32⟩ : BufTy).Contents (Elt F) :=
  broadcastInDim S3300000x1 ![0] bcast_S3300000_S3300000x1_0 v

/-- The inverse square root of each node's in-degree (self loop included). -/
def dinv (d : (⟨S3300000, .i32⟩ : BufTy).Contents (Elt F)) : (⟨S100000, .f32⟩ : BufTy).Contents (Elt F) :=
  Host.rsqrt (Host.scatterAdd scatter_S100000_S3300000x1_S3300000_n_0_0_1 (broadcastInDim S100000 ![] bcast_S_S100000 (constant S_ .f32 0x00000000#32)) (col d) (broadcastInDim S3300000 ![] bcast_S_S3300000 (constant S_ .f32 0x3F800000#32)))

/-- An edge's weight: `dinv` at its source times `dinv` at its destination. -/
def norm (s d : (⟨S3300000, .i32⟩ : BufTy).Contents (Elt F)) : (⟨S3300000, .f32⟩ : BufTy).Contents (Elt F) :=
  mulf (Host.gather gather_S100000_S3300000x1_S3300000_n_0_n_n_0_1_1 (dinv d) (wrap s)) (Host.gather gather_S100000_S3300000x1_S3300000_n_0_n_n_0_1_1 (dinv d) (wrap d))

/-- One layer at 16 features: rows of `h` gathered at the sources, scaled by the edge weights `w`, summed at the
    destinations; the bias `b` added to every row. -/
def agg16 (s d : (⟨S3300000, .i32⟩ : BufTy).Contents (Elt F)) (w : (⟨S3300000, .f32⟩ : BufTy).Contents (Elt F))
    (h : (⟨S100000x16, .f32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (col d) (mulf (Host.gather gather_S100000x16_S3300000x1_S3300000x16_1_0_n_n_0_1_116 h (wrap s)) (broadcastInDim S3300000x16 ![0, 1] bcast_S3300000x1_S3300000x16_0_1 (broadcastInDim S3300000x1 ![0] bcast_S3300000_S3300000x1_0 w)))) (broadcastInDim S100000x16 ![0, 1] bcast_S1x16_S100000x16_0_1 (broadcastInDim S1x16 ![1] bcast_S16_S1x16_1 b))

/-- The cut at zero of a 16-feature array. -/
def relu16 (x : (⟨S100000x16, .f32⟩ : BufTy).Contents (Elt F)) : (⟨S100000x16, .f32⟩ : BufTy).Contents (Elt F) :=
  maximumf x (broadcastInDim S100000x16 ![] bcast_S_S100000x16 (constant S_ .f32 0x00000000#32))

/-- One layer at 2 features. -/
def agg2 (s d : (⟨S3300000, .i32⟩ : BufTy).Contents (Elt F)) (w : (⟨S3300000, .f32⟩ : BufTy).Contents (Elt F))
    (h : (⟨S100000x2, .f32⟩ : BufTy).Contents (Elt F)) (b : (⟨S2, .f32⟩ : BufTy).Contents (Elt F)) :
    (⟨S100000x2, .f32⟩ : BufTy).Contents (Elt F) :=
  addf (Host.scatterAdd scatter_S100000x2_S3300000x1_S3300000x2_1_0_0_1 (broadcastInDim S100000x2 ![] bcast_S_S100000x2 (constant S_ .f32 0x00000000#32)) (col d) (mulf (Host.gather gather_S100000x2_S3300000x1_S3300000x2_1_0_n_n_0_1_12 h (wrap s)) (broadcastInDim S3300000x2 ![0, 1] bcast_S3300000x1_S3300000x2_0_1 (broadcastInDim S3300000x1 ![0] bcast_S3300000_S3300000x1_0 w)))) (broadcastInDim S100000x2 ![0, 1] bcast_S1x2_S100000x2_0_1 (broadcastInDim S1x2 ![1] bcast_S2_S1x2_1 b))

/-- The two-layer network over projections `p₁ : [N, 512] × [512, 16] → [N, 16]` and `p₂ : [N, 16] × [16, 2] → [N, 2]`. -/
def gcn
    (p₁ : (⟨S100000x512, .f32⟩ : BufTy).Contents (Elt F) → (⟨S512x16, .f32⟩ : BufTy).Contents (Elt F) → (⟨S100000x16, .f32⟩ : BufTy).Contents (Elt F))
    (p₂ : (⟨S100000x16, .f32⟩ : BufTy).Contents (Elt F) → (⟨S16x2, .f32⟩ : BufTy).Contents (Elt F) → (⟨S100000x2, .f32⟩ : BufTy).Contents (Elt F))
    (x : (⟨S100000x512, .f32⟩ : BufTy).Contents (Elt F)) (e : (⟨S2x3200000, .i32⟩ : BufTy).Contents (Elt F))
    (W₁ : (⟨S512x16, .f32⟩ : BufTy).Contents (Elt F)) (b₁ : (⟨S16, .f32⟩ : BufTy).Contents (Elt F))
    (W₂ : (⟨S16x2, .f32⟩ : BufTy).Contents (Elt F)) (b₂ : (⟨S2, .f32⟩ : BufTy).Contents (Elt F)) :
    (⟨S100000x2, .f32⟩ : BufTy).Contents (Elt F) :=
  agg2 (srcs e) (dsts e) (norm (srcs e) (dsts e))
    (p₂ (relu16 (agg16 (srcs e) (dsts e) (norm (srcs e) (dsts e)) (p₁ x W₁) b₁)) W₂) b₂

end Cert.KernelIdeal.Gcn

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«130400_j3917010174011_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.Proj.lean ====
/-
  The two projections of the network as plain matrix products over the extended reals, and the fact that lets a
  product be computed a block of rows at a time: entry `(p, q)` of `X · W` is the sum over `k` of
  `X (p, k) · W (k, q)`, so it reads row `p` of `X` and column `q` of `W` and nothing else. A block of rows of
  `X` times `W` is therefore the same block of rows of `X · W`.
-/
import proofs.«130400_j3917010174011_2_alg».proof.Proof.Layers
import proofs.«130400_j3917010174011_2_alg».proof.Proof.LibDense

noncomputable section

namespace Cert.KernelIdeal.Gcn

open Idealize.ShloMosaic Idealize.ShloMosaic.ValueIdx Cert.KernelIdeal Cert.DenseLib

/-- The first projection, `[N, 512] · [512, 16]`. -/
def proj₁ (x : (⟨S100000x512, .f32⟩ : BufTy).Contents (Elt Ideal)) (w : (⟨S512x16, .f32⟩ : BufTy).Contents (Elt Ideal)) :
    (⟨S100000x16, .f32⟩ : BufTy).Contents (Elt Ideal) :=
  mm (M := 100000) (K := 512) (N := 16) x w

/-- The second projection, `[N, 16] · [16, 2]`. -/
def proj₂ (x : (⟨S100000x16, .f32⟩ : BufTy).Contents (Elt Ideal)) (w : (⟨S16x2, .f32⟩ : BufTy).Contents (Elt Ideal)) :
    (⟨S100000x2, .f32⟩ : BufTy).Contents (Elt Ideal) :=
  mm (M := 100000) (K := 16) (N := 2) x w

/-- Entry `j` of a product of `B` rows is entry `i` of a product of `M` rows as soon as row `j 0` of the one left
    operand is row `i 0` of the other and column `j 1` of the one right operand is column `i 1` of the other. -/
theorem mm_block {M B K N : ℕ} (X : (⟨2, ![M, K]⟩ : Shape).Idx → EReal) (W : (⟨2, ![K, N]⟩ : Shape).Idx → EReal)
    (Xb : (⟨2, ![B, K]⟩ : Shape).Idx → EReal) (Wb : (⟨2, ![K, N]⟩ : Shape).Idx → EReal)
    (j : (⟨2, ![B, N]⟩ : Shape).Idx) (i : (⟨2, ![M, N]⟩ : Shape).Idx)
    (hX : ∀ k : Fin K, Xb (ix2 (n0 := B) (j 0) k) = X (ix2 (n0 := M) (i 0) k))
    (hW : ∀ k : Fin K, Wb (ix2 k (n1 := N) (j 1)) = W (ix2 k (n1 := N) (i 1))) :
    mm Xb Wb j = mm X W i := by
  unfold mm
  exact Finset.sum_congr rfl fun k _ => by rw [hX k, hW k]

end Cert.KernelIdeal.Gcn

end
-- ==== Proof.Blocks0.lean ====
/-
  Region 0: the array the pipelined product leaves.

  The grid has 20 points. At point `t` the left operand's window holds rows `5000 t … 5000 t + 4999` of its array
  (all 512 columns), the right operand's window holds its whole `[512, 16]` matrix, and the body stores the product
  of the two (converted to a narrower float format first, which changes nothing over the extended reals, and
  accumulated into zero) over the output window, rows `5000 t … 5000 t + 4999` of the output array. Row `r` of the
  output is written exactly once, at point `r / 5000`, and what is written there is row `r` of the product of the
  whole arrays. So the output array ends as that product, whatever the region found in its buffers.
-/
import proofs.«130400_j3917010174011_2_alg».proof.Proof.Gen.KernelIdeal.Frame
import proofs.«130400_j3917010174011_2_alg».proof.Proof.Proj
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Gcn Cert.DenseLib

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S5000x512 .f32) (x1 : Vec Ideal S512x16 .f32) :
    k0_pay1 x0 x1 = mm (M := 5000) (K := 512) (N := 16) x0 x1 := by
  unfold k0_pay1
  exact matmul_eq_mm dot_S5000x512_S512x16_S5000x16_1_0_0_1_n_n rfl _ _

/-- The printed index maps over the grid: the left operand's and the output's blocks move down one block of rows
    per point; the right operand's block stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem flushed_eq (c : Dev nD) (t : Fin cfg0.N) :
    (dat0 V c).flushed 2 t = ((cfg0.win 2).blk t).view.read (Elt Ideal) (proj₁ (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  rw [pay_eq]
  obtain ⟨e0, e1, e2, e3, e4, e5⟩ := idx t
  funext j
  refine mm_block (M := 100000) (B := 5000) (K := 512) (N := 16) (V c main_arg0) (V c main_arg2) (iblk0 V c 0 t) (iblk0 V c 1 t) j
    (((cfg0.win 2).blk t).view.emb j) (fun k => ?_) (fun k => ?_)
  · show V c main_arg0 (((cfg0.win 0).blk t).view.emb (ix2 (n0 := 5000) (j 0) k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · show V c main_arg2 (((cfg0.win 1).blk t).view.emb (ix2 k (n1 := 16) (j 1))) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v27).slice (win0_2.rect t)).set ↔ _
  rw [View.set_slice_whole, Rect.mem_set_unit]
  exact Iff.rfl

/-- Every index of the output array is in the block of the point its row falls in. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨e0, e1, e2, e3, e4, e5⟩ := idx ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 16 ≤ (i 1).val ∧ (i 1).val < win0_2.index ⟨(i 0).val / 5000, ht⟩ (1 : Fin 2) * 16 + 16; omega

/-- The output array after the region: the product of the two operand arrays as the region found them. -/
theorem final (c : Dev nD) : (dat0 V c).arrAt 2 cfg0.N = proj₁ (V c main_arg0) (V c main_arg2) :=
  (dat0 V c).arrAt_eq_of_cover 2 (proj₁ (V c main_arg0) (V c main_arg2)) (fun t _ => flushed_eq V c t) (cover)

end Cert.KernelIdeal.Blocks0

end
-- ==== Proof.Blocks1.lean ====
/-
  Region 1: the array the pipelined product leaves.

  The grid has 20 points. At point `t` the left operand's window holds rows `5000 t … 5000 t + 4999` of its array
  (all 16 columns), the right operand's window holds its whole `[16, 2]` matrix, and the body stores the product
  of the two (converted to a narrower float format first, which changes nothing over the extended reals, and
  accumulated into zero) over the output window, rows `5000 t … 5000 t + 4999` of the output array. Row `r` of the
  output is written exactly once, at point `r / 5000`, and what is written there is row `r` of the product of the
  whole arrays. So the output array ends as that product, whatever the region found in its buffers.
-/
import proofs.«130400_j3917010174011_2_alg».proof.Proof.Gen.KernelIdeal.Frame
import proofs.«130400_j3917010174011_2_alg».proof.Proof.Proj
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Gcn Cert.DenseLib

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S5000x16 .f32) (x1 : Vec Ideal S16x2 .f32) :
    k1_pay1 x0 x1 = mm (M := 5000) (K := 16) (N := 2) x0 x1 := by
  unfold k1_pay1
  rw [shapeCast_self]
  exact matmul_eq_mm dot_S5000x16_S16x2_S5000x2_1_0_0_1_n_n rfl _ _

/-- The printed index maps over the grid: the left operand's and the output's blocks move down one block of rows
    per point; the right operand's block stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the whole arrays. -/
theorem flushed_eq (c : Dev nD) (t : Fin cfg1.N) :
    (dat1 V c).flushed 2 t = ((cfg1.win 2).blk t).view.read (Elt Ideal) (proj₂ (V c main_v44) (V c main_arg4)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x2) hz]
  rw [pay_eq]
  obtain ⟨e0, e1, e2, e3, e4, e5⟩ := idx t
  funext j
  refine mm_block (M := 100000) (B := 5000) (K := 16) (N := 2) (V c main_v44) (V c main_arg4) (iblk1 V c 0 t) (iblk1 V c 1 t) j
    (((cfg1.win 2).blk t).view.emb j) (fun k => ?_) (fun k => ?_)
  · show V c main_v44 (((cfg1.win 0).blk t).view.emb (ix2 (n0 := 5000) (j 0) k)) = _
    refine congrArg (V c main_v44) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  · show V c main_arg4 (((cfg1.win 1).blk t).view.emb (ix2 k (n1 := 2) (j 1))) = _
    refine congrArg (V c main_arg4) ?_
    funext a; apply Fin.ext
    match a with
    | ⟨0, _⟩ => show win1_1.index t (0 : Fin 2) * 16 + 1 * k.val = k.val; omega
    | ⟨1, _⟩ => show win1_1.index t (1 : Fin 2) * 2 + 1 * (j 1).val = win1_2.index t (1 : Fin 2) * 2 + 1 * (j 1).val; omega

/-- An index of the output array is in point `t`'s block iff each coordinate is in the block's range on its axis. -/
theorem mem_blk (t : Fin cfg1.N) (i : S100000x2.Idx) :
    i ∈ ((cfg1.win 2).blk t).view.set ↔ ∀ a : Fin 2, win1_2.index t a * S5000x2.size a ≤ (i a).val ∧ (i a).val < win1_2.index t a * S5000x2.size a + S5000x2.size a := by
  show i ∈ ((View.whole main_v45).slice (win1_2.rect t)).set ↔ _
  rw [View.set_slice_whole, Rect.mem_set_unit]
  exact Iff.rfl

/-- Every index of the output array is in the block of the point its row falls in. -/
theorem cover (i : S100000x2.Idx) : ∃ t : Fin cfg1.N, (cfg1.win 2).flush t = true ∧ i ∈ ((cfg1.win 2).blk t).view.set := by
  have hi0 : (i 0).val < 100000 := (i 0).isLt
  have hi1 : (i 1).val < 2 := (i 1).isLt
  have hN : cfg1.N = 20 := N_1
  have ht : (i 0).val / 5000 < cfg1.N := by rw [hN]; omega
  obtain ⟨e0, e1, e2, e3, e4, e5⟩ := idx ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 2 ≤ (i 1).val ∧ (i 1).val < win1_2.index ⟨(i 0).val / 5000, ht⟩ (1 : Fin 2) * 2 + 2; omega

/-- The output array after the region: the product of the two operand arrays as the region found them. -/
theorem final (c : Dev nD) : (dat1 V c).arrAt 2 cfg1.N = proj₂ (V c main_v44) (V c main_arg4) :=
  (dat1 V c).arrAt_eq_of_cover 2 (proj₂ (V c main_v44) (V c main_arg4)) (fun t _ => flushed_eq V c t) (cover)

end Cert.KernelIdeal.Blocks1

end
-- ==== Proof.Walk.lean ====
/-
  The contents of the live buffers at each segment boundary of the idealized kernel's @main, and with them the
  result.

  Each stretch of host lines is read once, for ANY contents `Wv` of the buffers at its entry: the lines that
  build the edge lists leave the sources, the destinations and the edge weights as `srcs`, `dsts` and `norm` of
  the edge array; the lines after the first projection leave `agg16` of the three and of the projection's
  output; the called function leaves its cut at zero; the last lines leave `agg2`. A stretch changes no buffer
  it does not write. A region changes only its output array, which ends as the product of its two operand
  arrays (the block-by-block argument of the two region modules). Walking the six segments in order gives the
  result buffer as `gcn` of the two products and the six argument arrays.
-/
import proofs.«130400_j3917010174011_2_alg».proof.Proof.Blocks0
import proofs.«130400_j3917010174011_2_alg».proof.Proof.Blocks1
import Idealize.ShloMosaic.Lib.StableHlo.Run

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.KernelIdeal.Gcn

/-! ## Each stretch of host lines, from any entry contents -/

theorem host0_v5 (Wv : Valuation τ sig (Elt Ideal)) :
    StableHlo.after hostOps0 Wv (Proc.devRef .tc main_v5) = srcs (Wv (Proc.devRef .tc main_arg1)) := by
  after_results_simp <;> rfl

theorem host0_v6 (Wv : Valuation τ sig (Elt Ideal)) :
    StableHlo.after hostOps0 Wv (Proc.devRef .tc main_v6) = dsts (Wv (Proc.devRef .tc main_arg1)) := by
  after_results_simp <;> rfl

theorem host0_v26 (Wv : Valuation τ sig (Elt Ideal)) :
    StableHlo.after hostOps0 Wv (Proc.devRef .tc main_v26) = norm (srcs (Wv (Proc.devRef .tc main_arg1))) (dsts (Wv (Proc.devRef .tc main_arg1))) := by
  after_results_simp <;> rfl

theorem host0_keep_arg0 (Wv : Valuation τ sig (Elt Ideal)) :
    StableHlo.after hostOps0 Wv (Proc.devRef .tc main_arg0) = Wv (Proc.devRef .tc main_arg0) := by
  after_results_simp <;> rfl

theorem host0_keep_arg2 (Wv : Valuation τ sig (Elt Ideal)) :
    StableHlo.after hostOps0 Wv (Proc.devRef .tc main_arg2) = Wv (Proc.devRef .tc main_arg2) := by
  after_results_simp <;> rfl

theorem host0_keep_arg3 (Wv : Valuation τ sig (Elt Ideal)) :
    StableHlo.after hostOps0 Wv (Proc.devRef .tc main_arg3) = Wv (Proc.devRef .tc main_arg3) := by
  after_results_simp <;> rfl

theorem host0_keep_arg4 (Wv : Valuation τ sig (Elt Ideal)) :
    StableHlo.after hostOps0 Wv (Proc.devRef .tc main_arg4) = Wv (Proc.devRef .tc main_arg4) := by
  after_results_simp <;> rfl

theorem host0_keep_arg5 (Wv : Valuation τ sig (Elt Ideal)) :
    StableHlo.after hostOps0 Wv (Proc.devRef .tc main_arg5) = Wv (Proc.devRef .tc main_arg5) := by
  after_results_simp <;> rfl

theorem host1_v43 (Wv : Valuation τ sig (Elt Ideal)) :
    StableHlo.after hostOps1 Wv (Proc.devRef .tc main_v43)
      = agg16 (Wv (Proc.devRef .tc main_v5)) (Wv (Proc.devRef .tc main_v6)) (Wv (Proc.devRef .tc main_v26)) (Wv (Proc.devRef .tc main_v27)) (Wv (Proc.devRef .tc main_arg3)) := by
  after_results_simp <;> rfl

theorem host1_keep_v5 (Wv : Valuation τ sig (Elt Ideal)) :
    StableHlo.after hostOps1 Wv (Proc.devRef .tc main_v5) = Wv (Proc.devRef .tc main_v5) := by
  after_results_simp <;> rfl

theorem host1_keep_v6 (Wv : Valuation τ sig (Elt Ideal)) :
    StableHlo.after hostOps1 Wv (Proc.devRef .tc main_v6) = Wv (Proc.devRef .tc main_v6) := by
  after_results_simp <;> rfl

theorem host1_keep_v26 (Wv : Valuation τ sig (Elt Ideal)) :
    StableHlo.after hostOps1 Wv (Proc.devRef .tc main_v26) = Wv (Proc.devRef .tc main_v26) := by
  after_results_simp <;> rfl

theorem host1_keep_arg4 (Wv : Valuation τ sig (Elt Ideal)) :
    StableHlo.after hostOps1 Wv (Proc.devRef .tc main_arg4) = Wv (Proc.devRef .tc main_arg4) := by
  after_results_simp <;> rfl

theorem host1_keep_arg5 (Wv : Valuation τ sig (Elt Ideal)) :
    StableHlo.after hostOps1 Wv (Proc.devRef .tc main_arg5) = Wv (Proc.devRef .tc main_arg5) := by
  after_results_simp <;> rfl

theorem call_v44 (Wv : Valuation τ sig (Elt Ideal)) :
    StableHlo.after hostOps1_1 Wv (Proc.devRef .tc main_v44) = relu16 (Wv (Proc.devRef .tc main_v43)) := by
  after_results_simp <;> rfl

theorem call_keep_v5 (Wv : Valuation τ sig (Elt Ideal)) :
    StableHlo.after hostOps1_1 Wv (Proc.devRef .tc main_v5) = Wv (Proc.devRef .tc main_v5) := by
  after_results_simp <;> rfl

theorem call_keep_v6 (Wv : Valuation τ sig (Elt Ideal)) :
    StableHlo.after hostOps1_1 Wv (Proc.devRef .tc main_v6) = Wv (Proc.devRef .tc main_v6) := by
  after_results_simp <;> rfl

theorem call_keep_v26 (Wv : Valuation τ sig (Elt Ideal)) :
    StableHlo.after hostOps1_1 Wv (Proc.devRef .tc main_v26) = Wv (Proc.devRef .tc main_v26) := by
  after_results_simp <;> rfl

theorem call_keep_arg4 (Wv : Valuation τ sig (Elt Ideal)) :
    StableHlo.after hostOps1_1 Wv (Proc.devRef .tc main_arg4) = Wv (Proc.devRef .tc main_arg4) := by
  after_results_simp <;> rfl

theorem call_keep_arg5 (Wv : Valuation τ sig (Elt Ideal)) :
    StableHlo.after hostOps1_1 Wv (Proc.devRef .tc main_arg5) = Wv (Proc.devRef .tc main_arg5) := by
  after_results_simp <;> rfl

theorem host2_v61 (Wv : Valuation τ sig (Elt Ideal)) :
    StableHlo.after hostOps2 Wv (Proc.devRef .tc main_v61)
      = agg2 (Wv (Proc.devRef .tc main_v5)) (Wv (Proc.devRef .tc main_v6)) (Wv (Proc.devRef .tc main_v26)) (Wv (Proc.devRef .tc main_v45)) (Wv (Proc.devRef .tc main_arg5)) := by
  after_results_simp <;> rfl

/-! ## The boundaries, in order -/

variable (m : (ℓ : Loc nD τ sig) → Buf (Elt Ideal) ℓ) (ρ : Dev nD → PrngReg)

/-! ### After the first stretch (the first region's entry) -/

theorem W1_v5 (c : Dev nD) : W1 m ρ c (Proc.devRef .tc main_v5) = srcs (m ((c : Thread nD τ).loc main_arg1)) := host0_v5 (W0 m ρ c)
theorem W1_v6 (c : Dev nD) : W1 m ρ c (Proc.devRef .tc main_v6) = dsts (m ((c : Thread nD τ).loc main_arg1)) := host0_v6 (W0 m ρ c)
theorem W1_v26 (c : Dev nD) : W1 m ρ c (Proc.devRef .tc main_v26) = norm (srcs (m ((c : Thread nD τ).loc main_arg1))) (dsts (m ((c : Thread nD τ).loc main_arg1))) := host0_v26 (W0 m ρ c)
theorem W1_arg0 (c : Dev nD) : W1 m ρ c (Proc.devRef .tc main_arg0) = (m ((c : Thread nD τ).loc main_arg0)) := host0_keep_arg0 (W0 m ρ c)
theorem W1_arg2 (c : Dev nD) : W1 m ρ c (Proc.devRef .tc main_arg2) = (m ((c : Thread nD τ).loc main_arg2)) := host0_keep_arg2 (W0 m ρ c)
theorem W1_arg3 (c : Dev nD) : W1 m ρ c (Proc.devRef .tc main_arg3) = (m ((c : Thread nD τ).loc main_arg3)) := host0_keep_arg3 (W0 m ρ c)
theorem W1_arg4 (c : Dev nD) : W1 m ρ c (Proc.devRef .tc main_arg4) = (m ((c : Thread nD τ).loc main_arg4)) := host0_keep_arg4 (W0 m ρ c)
theorem W1_arg5 (c : Dev nD) : W1 m ρ c (Proc.devRef .tc main_arg5) = (m ((c : Thread nD τ).loc main_arg5)) := host0_keep_arg5 (W0 m ρ c)

/-! ### At the first region's exit -/

theorem W2_v27 (c : Dev nD) : W2 m ρ c (Proc.devRef .tc main_v27) = proj₁ (m ((c : Thread nD τ).loc main_arg0)) (m ((c : Thread nD τ).loc main_arg2)) := by
  refine ((W2_arr m ρ c 2).trans (Blocks0.final (V1 m ρ) c)).trans ?_
  show proj₁ (W1 m ρ c (Proc.devRef .tc main_arg0)) (W1 m ρ c (Proc.devRef .tc main_arg2)) = _
  rw [W1_arg0, W1_arg2]
theorem W2_v5 (c : Dev nD) : W2 m ρ c (Proc.devRef .tc main_v5) = srcs (m ((c : Thread nD τ).loc main_arg1)) := (W2_of_ne m ρ c main_v5 (by decide)).trans (W1_v5 m ρ c)
theorem W2_v6 (c : Dev nD) : W2 m ρ c (Proc.devRef .tc main_v6) = dsts (m ((c : Thread nD τ).loc main_arg1)) := (W2_of_ne m ρ c main_v6 (by decide)).trans (W1_v6 m ρ c)
theorem W2_v26 (c : Dev nD) : W2 m ρ c (Proc.devRef .tc main_v26) = norm (srcs (m ((c : Thread nD τ).loc main_arg1))) (dsts (m ((c : Thread nD τ).loc main_arg1))) := (W2_of_ne m ρ c main_v26 (by decide)).trans (W1_v26 m ρ c)
theorem W2_arg3 (c : Dev nD) : W2 m ρ c (Proc.devRef .tc main_arg3) = (m ((c : Thread nD τ).loc main_arg3)) := (W2_of_ne m ρ c main_arg3 (by decide)).trans (W1_arg3 m ρ c)
theorem W2_arg4 (c : Dev nD) : W2 m ρ c (Proc.devRef .tc main_arg4) = (m ((c : Thread nD τ).loc main_arg4)) := (W2_of_ne m ρ c main_arg4 (by decide)).trans (W1_arg4 m ρ c)
theorem W2_arg5 (c : Dev nD) : W2 m ρ c (Proc.devRef .tc main_arg5) = (m ((c : Thread nD τ).loc main_arg5)) := (W2_of_ne m ρ c main_arg5 (by decide)).trans (W1_arg5 m ρ c)

/-! ### After the first aggregation's lines -/

/-- The first layer before its cut at zero. -/
def layer1 (c : Dev nD) : (⟨S100000x16, .f32⟩ : BufTy).Contents (Elt Ideal) :=
  agg16 (srcs (m ((c : Thread nD τ).loc main_arg1))) (dsts (m ((c : Thread nD τ).loc main_arg1))) (norm (srcs (m ((c : Thread nD τ).loc main_arg1))) (dsts (m ((c : Thread nD τ).loc main_arg1)))) (proj₁ (m ((c : Thread nD τ).loc main_arg0)) (m ((c : Thread nD τ).loc main_arg2))) (m ((c : Thread nD τ).loc main_arg3))

theorem W3_v43 (c : Dev nD) : W3 m ρ c (Proc.devRef .tc main_v43) = layer1 m c := by
  refine (host1_v43 (W2 m ρ c)).trans ?_
  rw [W2_v5, W2_v6, W2_v26, W2_v27, W2_arg3]
  rfl
theorem W3_v5 (c : Dev nD) : W3 m ρ c (Proc.devRef .tc main_v5) = srcs (m ((c : Thread nD τ).loc main_arg1)) := (host1_keep_v5 (W2 m ρ c)).trans (W2_v5 m ρ c)
theorem W3_v6 (c : Dev nD) : W3 m ρ c (Proc.devRef .tc main_v6) = dsts (m ((c : Thread nD τ).loc main_arg1)) := (host1_keep_v6 (W2 m ρ c)).trans (W2_v6 m ρ c)
theorem W3_v26 (c : Dev nD) : W3 m ρ c (Proc.devRef .tc main_v26) = norm (srcs (m ((c : Thread nD τ).loc main_arg1))) (dsts (m ((c : Thread nD τ).loc main_arg1))) := (host1_keep_v26 (W2 m ρ c)).trans (W2_v26 m ρ c)
theorem W3_arg4 (c : Dev nD) : W3 m ρ c (Proc.devRef .tc main_arg4) = (m ((c : Thread nD τ).loc main_arg4)) := (host1_keep_arg4 (W2 m ρ c)).trans (W2_arg4 m ρ c)
theorem W3_arg5 (c : Dev nD) : W3 m ρ c (Proc.devRef .tc main_arg5) = (m ((c : Thread nD τ).loc main_arg5)) := (host1_keep_arg5 (W2 m ρ c)).trans (W2_arg5 m ρ c)

/-! ### After the cut at zero (the second region's entry) -/

theorem W4_v44 (c : Dev nD) : W4 m ρ c (Proc.devRef .tc main_v44) = relu16 (layer1 m c) :=
  (call_v44 (W3 m ρ c)).trans (congrArg relu16 (W3_v43 m ρ c))
theorem W4_v5 (c : Dev nD) : W4 m ρ c (Proc.devRef .tc main_v5) = srcs (m ((c : Thread nD τ).loc main_arg1)) := (call_keep_v5 (W3 m ρ c)).trans (W3_v5 m ρ c)
theorem W4_v6 (c : Dev nD) : W4 m ρ c (Proc.devRef .tc main_v6) = dsts (m ((c : Thread nD τ).loc main_arg1)) := (call_keep_v6 (W3 m ρ c)).trans (W3_v6 m ρ c)
theorem W4_v26 (c : Dev nD) : W4 m ρ c (Proc.devRef .tc main_v26) = norm (srcs (m ((c : Thread nD τ).loc main_arg1))) (dsts (m ((c : Thread nD τ).loc main_arg1))) := (call_keep_v26 (W3 m ρ c)).trans (W3_v26 m ρ c)
theorem W4_arg4 (c : Dev nD) : W4 m ρ c (Proc.devRef .tc main_arg4) = (m ((c : Thread nD τ).loc main_arg4)) := (call_keep_arg4 (W3 m ρ c)).trans (W3_arg4 m ρ c)
theorem W4_arg5 (c : Dev nD) : W4 m ρ c (Proc.devRef .tc main_arg5) = (m ((c : Thread nD τ).loc main_arg5)) := (call_keep_arg5 (W3 m ρ c)).trans (W3_arg5 m ρ c)

/-! ### At the second region's exit -/

theorem W5_v45 (c : Dev nD) : W5 m ρ c (Proc.devRef .tc main_v45) = proj₂ (relu16 (layer1 m c)) (m ((c : Thread nD τ).loc main_arg4)) := by
  refine ((W5_arr m ρ c 2).trans (Blocks1.final (V4 m ρ) c)).trans ?_
  show proj₂ (W4 m ρ c (Proc.devRef .tc main_v44)) (W4 m ρ c (Proc.devRef .tc main_arg4)) = _
  rw [W4_v44, W4_arg4]
theorem W5_v5 (c : Dev nD) : W5 m ρ c (Proc.devRef .tc main_v5) = srcs (m ((c : Thread nD τ).loc main_arg1)) := (W5_of_ne m ρ c main_v5 (by decide)).trans (W4_v5 m ρ c)
theorem W5_v6 (c : Dev nD) : W5 m ρ c (Proc.devRef .tc main_v6) = dsts (m ((c : Thread nD τ).loc main_arg1)) := (W5_of_ne m ρ c main_v6 (by decide)).trans (W4_v6 m ρ c)
theorem W5_v26 (c : Dev nD) : W5 m ρ c (Proc.devRef .tc main_v26) = norm (srcs (m ((c : Thread nD τ).loc main_arg1))) (dsts (m ((c : Thread nD τ).loc main_arg1))) := (W5_of_ne m ρ c main_v26 (by decide)).trans (W4_v26 m ρ c)
theorem W5_arg5 (c : Dev nD) : W5 m ρ c (Proc.devRef .tc main_arg5) = (m ((c : Thread nD τ).loc main_arg5)) := (W5_of_ne m ρ c main_arg5 (by decide)).trans (W4_arg5 m ρ c)

/-! ### At the return -/

/-- The result buffer after the last stretch: the two-layer network over the two products. -/
theorem result (c : Dev nD) :
    W6 m ρ c (Proc.devRef .tc main_v61) = gcn proj₁ proj₂ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (host2_v61 (W5 m ρ c)).trans ?_
  rw [W5_v5, W5_v6, W5_v26, W5_v45, W5_arg5]
  rfl

end Cert.KernelIdeal.Walk

end
-- ==== Proof.RefIsGcn.lean ====
/-
  The reference computes the same two-layer network, with each projection a single general dot.

  Its @main applies, to the same six arguments, the same host operations in the same order as the kernel's
  program — it only rebuilds the edge lists and the edge weights for the second layer instead of keeping them,
  which gives the same arrays — and takes each projection by one `dot_general` that contracts the left
  operand's columns against the right operand's rows. Over the extended reals that dot is the plain matrix
  product: entry `(p, q)` is the sum over `k` of `X (p, k) · W (k, q)`.
-/
import proofs.«130400_j3917010174011_2_alg».proof.Proof.Gen.ReferenceIdeal.Run
import proofs.«130400_j3917010174011_2_alg».proof.Proof.Proj

set_option maxRecDepth 16384

noncomputable section

namespace Cert.ReferenceIdeal.AsGcn

open Idealize.ShloMosaic Idealize.ShloMosaic.TcCoe Idealize.SL.Sem
open Cert.KernelIdeal.Gcn Cert.DenseLib

variable [Cert.KernelIdeal.Facts] [Cert.ReferenceIdeal.Facts]

/-- The first general dot is the first product. -/
theorem dot₁_eq : (fun (l : (⟨Cert.KernelIdeal.S100000x512, .f32⟩ : BufTy).Contents (Elt Ideal)) (r : (⟨Cert.KernelIdeal.S512x16, .f32⟩ : BufTy).Contents (Elt Ideal)) =>
      Host.dotGeneral (F := Ideal) (φ₁ := .f32) (φ₂ := .f32) Cert.ReferenceIdeal.dot_S100000x512_S512x16_S100000x16_1_0_0_1_n_n none l r) = proj₁ :=
  funext fun l => funext fun r => dotGeneral_eq_mm (M := 100000) (K := 512) (N := 16) _ rfl l r

/-- The second general dot is the second product. -/
theorem dot₂_eq : (fun (l : (⟨Cert.KernelIdeal.S100000x16, .f32⟩ : BufTy).Contents (Elt Ideal)) (r : (⟨Cert.KernelIdeal.S16x2, .f32⟩ : BufTy).Contents (Elt Ideal)) =>
      Host.dotGeneral (F := Ideal) (φ₁ := .f32) (φ₂ := .f32) Cert.ReferenceIdeal.dot_S100000x16_S16x2_S100000x2_1_0_0_1_n_n none l r) = proj₂ :=
  funext fun l => funext fun r => dotGeneral_eq_mm (M := 100000) (K := 16) (N := 2) _ rfl l r

set_option maxHeartbeats 400000 in
/-- The reference's result term is the network over its two general dots. -/
theorem res_eq_dots (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v88 m c
      = gcn (fun l r => Host.dotGeneral (F := Ideal) (φ₁ := .f32) (φ₂ := .f32) Cert.ReferenceIdeal.dot_S100000x512_S512x16_S100000x16_1_0_0_1_n_n none l r)
          (fun l r => Host.dotGeneral (F := Ideal) (φ₁ := .f32) (φ₂ := .f32) Cert.ReferenceIdeal.dot_S100000x16_S16x2_S100000x2_1_0_0_1_n_n none l r)
          (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4))
          (m ((c : Thread Cert.ReferenceIdeal.nD Cert.ReferenceIdeal.τ).loc Cert.ReferenceIdeal.main_arg5)) := by
  unfold Cert.ReferenceIdeal.Value.res_main_v88
  rfl

/-- The reference's result term is the network over the two plain products. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v88 m c
      = gcn proj₁ proj₂
          (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4))
          (m ((c : Thread Cert.ReferenceIdeal.nD Cert.ReferenceIdeal.τ).loc Cert.ReferenceIdeal.main_arg5)) := by
  rw [res_eq_dots, dot₁_eq, dot₂_eq]

end Cert.ReferenceIdeal.AsGcn

end
-- ==== Proof.lean ====
/-
  A two-layer graph convolution over 100000 nodes and 3200000 edges, computed two ways, ends in the same array
  over the extended reals.

  Both programs take node features `x : [N, 512]`, an edge list `e : [2, E]`, and the two layers' weights and
  biases. Both add one self loop per node, count each node's in-degree `d`, weigh an edge `s → t` by
  `d(s)^(-1/2) · d(t)^(-1/2)`, and in each layer project the features, gather the projected rows at the edges'
  sources, scale them by the edge weights, sum them at the edges' destinations and add the bias; the first
  layer is cut at zero. These steps are the same host operations in both programs, on the same arguments
  (the reference rebuilds the edge lists and weights for its second layer, which gives the same arrays), so
  the whole network is one function `gcn` of the two projections and the six arguments.

  The programs differ only in how they project. The reference takes one general dot per layer. The kernel runs a
  pipelined product over 20 blocks of 5000 rows: each grid point multiplies its block of rows by the whole weight
  matrix (after a change of float format, which is the identity on the extended reals) into a zero accumulator
  and writes the block of the output. A row of a product depends only on that row of the left operand, so the
  blocks assemble to the product of the whole arrays, and the general dot is that same sum over the shared axis.
  No finiteness is needed: nothing is distributed or cancelled, the two sums have the same terms in the same
  order.

  The frames of the two kernel programs are the generated ones; the reference's frame is its generated run with
  the result dropped; the idealization rewrote no operation.
-/
import proofs.«130400_j3917010174011_2_alg».proof.Defs
import proofs.«130400_j3917010174011_2_alg».proof.Proof.Gen.Kernel
import proofs.«130400_j3917010174011_2_alg».proof.Proof.Gen.Kernel.Skeleton
import proofs.«130400_j3917010174011_2_alg».proof.Proof.Gen.Kernel.Launch
import proofs.«130400_j3917010174011_2_alg».proof.Proof.Gen.Kernel.Points
import proofs.«130400_j3917010174011_2_alg».proof.Proof.Gen.Kernel.Frame
import proofs.«130400_j3917010174011_2_alg».proof.Proof.Gen.KernelIdeal
import proofs.«130400_j3917010174011_2_alg».proof.Proof.Gen.KernelIdeal.Skeleton
import proofs.«130400_j3917010174011_2_alg».proof.Proof.Gen.KernelIdeal.Launch
import proofs.«130400_j3917010174011_2_alg».proof.Proof.Gen.KernelIdeal.Points
import proofs.«130400_j3917010174011_2_alg».proof.Proof.Gen.KernelIdeal.Frame
import proofs.«130400_j3917010174011_2_alg».proof.Proof.Gen.ReferenceIdeal
import proofs.«130400_j3917010174011_2_alg».proof.Proof.Gen.ReferenceIdeal.Run
import proofs.«130400_j3917010174011_2_alg».proof.Proof.Gen.Pre_finite_inputs
import proofs.«130400_j3917010174011_2_alg».proof.Proof.RunNamed
import proofs.«130400_j3917010174011_2_alg».proof.Proof.Walk
import proofs.«130400_j3917010174011_2_alg».proof.Proof.RefIsGcn
import Idealize.ShloMosaic.Adequacy
import Idealize.ShloMosaic.Init

noncomputable section

namespace Cert.Proof

open Idealize.ShloMosaic Idealize.ShloMosaic.TcCoe Idealize.SL.Sem
open Cert.KernelIdeal.Gcn

/-- The word-level kernel runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result at `gcn` of the two plain
    products and the arguments: the kernel by walking its six segments, the reference because its general dots
    are those products. -/
theorem algebraic : Cert.algebraic_KernelIdeal_ReferenceIdeal := by
  intro m ρ m' ρ' _ hagree
  refine ⟨fun c => gcn proj₁ proj₂ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ c), (h c).2⟩) (Cert.KernelIdeal.Named.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.AsGcn.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
